-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, stated over plain index types, and the one law that joins
  the two arrangements of its sum.

  Inputs: an activation matrix X (8192 rows, 4096 columns), an integer weight matrix W (4096 rows, 4096 columns)
  and a bias row B (4096 entries). A weight entry is dequantized as (integer value - 128) * s, with 128 and s the
  two float words the programs carry. The result at (r, o) is
      (sum over the 4096 columns l of X r l * deq (W o l)) + B o
  on the extended reals. One program takes the sum in a single sweep; the other takes it as four consecutive
  blocks of 1024 columns, one per grid point, added in order onto a zero. Addition of extended reals is
  commutative and associative, so the two agree; nothing here needs the entries to be finite.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- A weight entry dequantized: the stored integer read signed, minus 128, times the scale. Both constants are
    kept as their float words: the same words occur on both sides, so they are never evaluated. -/
def deq (q : BitVec 32) : Ideal .f32 :=
  FloatOps.mulf (FloatOps.subf (FloatOps.sitofp .f32 q) (FloatOps.ofBits .f32 0x43000000#32))
    (FloatOps.ofBits .f32 0x3CA3D70A#32)

/-- THE SPECIFICATION: entry (r, o) of the result. -/
def qlinear (X : (⟨2, ![8192, 4096]⟩ : Shape).Idx → Ideal .f32) (W : (⟨2, ![4096, 4096]⟩ : Shape).Idx → BitVec 32)
    (B : (⟨2, ![1, 4096]⟩ : Shape).Idx → Ideal .f32) : (⟨2, ![8192, 4096]⟩ : Shape).Idx → Ideal .f32 :=
  fun k => (∑ l : Fin 4096, X (ix2 (k 0) l) * deq (W (ix2 (k 1) l))) + B (ix2 (0 : Fin 1) (k 1))

/-! ## Sums over consecutive blocks -/

/-- A function on the first `n` naturals, extended by zero. -/
def ext0 {β : Type*} [Zero β] {n : ℕ} (f : Fin n → β) (l : ℕ) : β := if h : l < n then f ⟨l, h⟩ else 0

theorem ext0_val {β : Type*} [Zero β] {n : ℕ} (f : Fin n → β) (l : Fin n) : ext0 f l.val = f l := by
  unfold ext0; rw [dif_pos l.isLt]

theorem sum_ext0 {β : Type*} [AddCommMonoid β] {n : ℕ} (f : Fin n → β) :
    ∑ l ∈ Finset.range n, ext0 f l = ∑ l : Fin n, f l := by
  rw [Finset.sum_range]
  exact Finset.sum_congr rfl fun l _ => ext0_val f l

/-- A sum over `S * B` consecutive naturals is the sum of its `S` consecutive blocks of length `B`. -/
theorem sum_blocks {β : Type*} [AddCommMonoid β] (f : ℕ → β) (B : ℕ) :
    ∀ S : ℕ, ∑ s ∈ Finset.range S, ∑ k ∈ Finset.range B, f (s * B + k) = ∑ l ∈ Finset.range (S * B), f l
  | 0 => by simp
  | S + 1 => by
    rw [Finset.sum_range_succ, sum_blocks f B S, Nat.add_mul, Nat.one_mul, Finset.sum_range_add]

/-- Column `k` of the contraction block that grid point `n` works on: block `n mod 4`. -/
def col (n : ℕ) (k : Fin 1024) : Fin 4096 :=
  ⟨n % 4 * 1024 + k.val, by have := Nat.mod_lt n (by decide : 0 < 4); have := k.isLt; omega⟩

theorem col_val (n : ℕ) (k : Fin 1024) : (col n k).val = n % 4 * 1024 + k.val := rfl

/-- THE LAW: four consecutive grid points starting at a multiple of four sweep the 4096 columns exactly once, so
    their four block sums add up to the whole sum. -/
theorem sum_four_blocks {β : Type*} [AddCommMonoid β] (G : Fin 4096 → β) (b : ℕ) (hb : b % 4 = 0) :
    ∑ s ∈ Finset.range 4, ∑ k : Fin 1024, G (col (b + s) k) = ∑ l : Fin 4096, G l := by
  have e : ∀ s ∈ Finset.range 4, ∑ k : Fin 1024, G (col (b + s) k) = ∑ k ∈ Finset.range 1024, ext0 G (s * 1024 + k) := by
    intro s hs
    have hs' : s < 4 := Finset.mem_range.mp hs
    rw [Finset.sum_range]
    refine Finset.sum_congr rfl fun k _ => ?_
    have hv : (col (b + s) k).val = s * 1024 + k.val := by
      rw [col_val]
      have : (b + s) % 4 = s := by omega
      rw [this]
    rw [← hv, ext0_val]
  rw [Finset.sum_congr rfl e, sum_blocks (ext0 G) 1024 4]
  exact sum_ext0 G

end Cert.QLinear

end
-- ==== Proof.Pieces.lean ====
/-
  What each control case of the body leaves behind, as a term of the blocks it loaded.

  The body keeps a 1024 x 1024 accumulator in scratch memory. At a point where the contraction block index is 0
  it first stores zeros there; at every point it then stores (accumulator + product of the activation block with
  the dequantized weight block); at a point where the contraction block index is 3 it also stores
  (accumulator + bias row) into the output block. Each of these stores covers its whole buffer, so what the buffer
  holds afterwards is exactly the stored value, and each load reads a whole buffer, so it returns that buffer's
  contents. The statements hold for any float model.
-/
import proofs.«106950_j12086037971010_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- The zero offset of a store or load that starts at the buffer's origin. -/
theorem origin : (![0, 0] : Fin 2 → Nat) = fun _ => 0 := funext fun a => by fin_cases a <;> rfl

/-- First contraction block: the accumulator is zeroed and then receives the first product, so it ends at
    (zeros + product). -/
theorem scratch_first (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .i32) (x2 : Vec F S1x1024 .f32) :
    sout0_A_0 c i arg3 harg3 arg4 harg4 arg5 harg5 arg6 harg6 arg7 harg7 hc0 hc1 x0 x1 x2 = k0_pay2 x1 x0 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- A middle contraction block: the accumulator the previous point left receives this point's product. -/
theorem scratch_middle (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .i32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x1 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread,
    View.ld_unit_zero (S := S1024x1024) origin]

/-- Last contraction block, the accumulator: the same update as at a middle block. -/
theorem scratch_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .i32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x1 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S1024x1024) origin]

/-- Last contraction block, the output block: the updated accumulator plus the bias row. -/
theorem out_last (c : Dev nD) (i : grid0.Coords) (arg3 : Memref sig .tc .vmem S1024x1024 .f32) (harg3 : arg3.IsWhole) (arg4 : Memref sig .tc .vmem S1024x1024 .i32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .i32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x1 x0 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

end Cert.KernelIdeal.Pieces

end
-- ==== Proof.Payload.lean ====
/-
  The body's three stored values read at an index, on the extended reals.

  * the reset value is 0 everywhere;
  * the accumulator update at (p, q) is the old accumulator there plus the sum over the block's 1024 columns k of
    (activation block at (p, k)) * deq (weight block at (q, k)): the weight block is contracted along ITS columns,
    so the product needs no transpose, and the change of float format on the way into the product is the identity;
  * the output value at (p, q) is the accumulator there plus the bias row at q.
-/
import proofs.«106950_j12086037971010_1_alg».proof.Proof.Gen.KernelIdeal.Skeleton
import proofs.«106950_j12086037971010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.QLinear

/-- The reset value: zero at every index. -/
theorem reset_apply (i : S1024x1024.Idx) : k0_pay1 (F := Ideal) i = 0 := by
  unfold k0_pay1
  rw [shapeCast_self]
  exact Ideal.ofBits_zero_f32

/-- Coordinates of the product's operand indices, one axis at a time: the left operand is read at
    (output row, contraction index), the right operand at (output column, contraction index). -/
theorem lhs_row (j : S1024x1024.Idx) (κ : dot_S1024x1024_S1024x1024_S1024x1024_1_1_0_0_n_n.contr.Idx) : (dot_S1024x1024_S1024x1024_S1024x1024_1_1_0_0_n_n.lhsIdx j κ 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_col (j : S1024x1024.Idx) (κ : dot_S1024x1024_S1024x1024_S1024x1024_1_1_0_0_n_n.contr.Idx) : (dot_S1024x1024_S1024x1024_S1024x1024_1_1_0_0_n_n.lhsIdx j κ 1).val = (κ ⟨0, by decide⟩).val :=
  dot_S1024x1024_S1024x1024_S1024x1024_1_1_0_0_n_n.lhsIdx_val_of_single rfl j κ
theorem rhs_row (j : S1024x1024.Idx) (κ : dot_S1024x1024_S1024x1024_S1024x1024_1_1_0_0_n_n.contr.Idx) : (dot_S1024x1024_S1024x1024_S1024x1024_1_1_0_0_n_n.rhsIdx j κ 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_col (j : S1024x1024.Idx) (κ : dot_S1024x1024_S1024x1024_S1024x1024_1_1_0_0_n_n.contr.Idx) : (dot_S1024x1024_S1024x1024_S1024x1024_1_1_0_0_n_n.rhsIdx j κ 1).val = (κ ⟨0, by decide⟩).val :=
  dot_S1024x1024_S1024x1024_S1024x1024_1_1_0_0_n_n.rhsIdx_val_of_single rfl j κ

/-- The product's left operand index at output (p, q) and contraction index k is (p, k). -/
theorem lhs_at (p q : Fin 1024) (k : Fin 1024) :
    dot_S1024x1024_S1024x1024_S1024x1024_1_1_0_0_n_n.lhsIdx (ix2 p q) ((contrEquiv1 dot_S1024x1024_S1024x1024_S1024x1024_1_1_0_0_n_n 1024 rfl rfl).symm k) = ix2 p k :=
  funext fun a => Fin.ext (by
    match a with
    | ⟨0, _⟩ => exact lhs_row _ _
    | ⟨1, _⟩ => exact (lhs_col _ _).trans (contrEquiv1_symm_val dot_S1024x1024_S1024x1024_S1024x1024_1_1_0_0_n_n 1024 rfl rfl k))

/-- The product's right operand index at output (p, q) and contraction index k is (q, k): row q of the weight block. -/
theorem rhs_at (p q : Fin 1024) (k : Fin 1024) :
    dot_S1024x1024_S1024x1024_S1024x1024_1_1_0_0_n_n.rhsIdx (ix2 p q) ((contrEquiv1 dot_S1024x1024_S1024x1024_S1024x1024_1_1_0_0_n_n 1024 rfl rfl).symm k) = ix2 q k :=
  funext fun a => Fin.ext (by
    match a with
    | ⟨0, _⟩ => exact rhs_row _ _
    | ⟨1, _⟩ => exact (rhs_col _ _).trans (contrEquiv1_symm_val dot_S1024x1024_S1024x1024_S1024x1024_1_1_0_0_n_n 1024 rfl rfl k))

/-- The accumulator update at (p, q). -/
theorem update_apply (w : Vec Ideal S1024x1024 .i32) (x acc : Vec Ideal S1024x1024 .f32) (p q : Fin 1024) :
    k0_pay2 w x acc (ix2 p q) = acc (ix2 p q) + ∑ k : Fin 1024, x (ix2 p k) * deq (w (ix2 q k)) := by
  unfold k0_pay2
  rw [shapeCast_self, shapeCast_self]
  refine congrArg (acc (ix2 p q) + ·) ?_
  refine (Ideal.matmul_constant_zero_apply dot_S1024x1024_S1024x1024_S1024x1024_1_1_0_0_n_n none _ _ (ix2 p q)).trans ?_
  rw [← Equiv.sum_comp (contrEquiv1 dot_S1024x1024_S1024x1024_S1024x1024_1_1_0_0_n_n 1024 rfl rfl).symm]
  refine Finset.sum_congr rfl fun k _ => ?_
  rw [lhs_at, rhs_at]
  rfl

/-- The output value at (p, q). -/
theorem output_apply (acc : Vec Ideal S1024x1024 .f32) (b : Vec Ideal S1x1024 .f32) (p q : Fin 1024) :
    k0_pay3 acc b (ix2 p q) = acc (ix2 p q) + b (ix2 (0 : Fin 1) q) := by
  unfold k0_pay3
  rw [shapeCast_self]
  exact congrArg (acc (ix2 p q) + ·) (broadcastTo_1b_ab_apply b _ p q)

end Cert.KernelIdeal.Payload

end
-- ==== Proof.Blocks.lean ====
/-
  Where each window's block sits in the array it stages.

  The grid has 8 x 4 x 4 points, numbered row-major: point t has row-block t / 16, column-block (t / 4) mod 4 and
  contraction block t mod 4. At point t
    * the activation window holds rows   (t / 16) * 1024 + p        and columns (t mod 4) * 1024 + k,
    * the weight window holds rows       ((t / 4) mod 4) * 1024 + q  and columns (t mod 4) * 1024 + k,
    * the bias window holds columns      ((t / 4) mod 4) * 1024 + q  of its one row,
    * the output window covers rows (t / 16) * 1024 + p and columns ((t / 4) mod 4) * 1024 + q.
  The arrays the region stages are the arguments as the host lines before it leave them: the activations
  reshaped from [4, 2048, 4096] to [8192, 4096], the bias from [4096] to [1, 4096], the weights untouched.
-/
import proofs.«106950_j12086037971010_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps as arithmetic of the point's number, decided once over the 128 points. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activation block at point `t`, entry (p, k), is the staged activation matrix at (R, L). -/
theorem x_block (c : Dev nD) (t : Fin cfg0.N) (p k : Fin 1024) (R : Fin 8192) (L : Fin 4096)
    (hR : R.val = t.val / 16 * 1024 + p.val) (hL : L.val = t.val % 4 * 1024 + k.val) :
    (iblk m c 0 t : Vec F S1024x1024 .f32) (ix2 p k) = (V m c main_v0 : S8192x4096.Idx → Elt F .f32) (ix2 R L) := by
  obtain ⟨e0, e1, -⟩ := index_maps t
  unfold iblk
  rw [View.read_apply]
  show V m c main_v0 _ = V m c main_v0 _
  refine congrArg _ (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * k.val = L.val; rw [e1, hL]; omega

/-- The weight block at point `t`, entry (q, k), is the weight matrix at (O, L). -/
theorem w_block (c : Dev nD) (t : Fin cfg0.N) (q k : Fin 1024) (O : Fin 4096) (L : Fin 4096)
    (hO : O.val = t.val / 4 % 4 * 1024 + q.val) (hL : L.val = t.val % 4 * 1024 + k.val) :
    (iblk m c 1 t : Vec F S1024x1024 .i32) (ix2 q k) = (V m c main_arg1 : S4096x4096.Idx → Elt F .i32) (ix2 O L) := by
  obtain ⟨-, -, e2, e3, -⟩ := index_maps t
  unfold iblk
  rw [View.read_apply]
  show V m c main_arg1 _ = V m c main_arg1 _
  refine congrArg _ (funext fun a => Fin.ext ?_)
  match a with
  | ⟨0, _⟩ => show win0_1.index t (0 : Fin 2) * 1024 + 1 * q.val = O.val; rw [e2, hO]; omega
  | ⟨1, _⟩ => show win0_1.index t (1 : Fin 2) * 1024 + 1 * k.val = L.val; rw [e3, hL]; omega

/-- The bias block at point `t`, entry (0, q), is the staged bias row at (0, O). -/
theorem b_block (c : Dev nD) (t : Fin cfg0.N) (q : Fin 1024) (O : Fin 4096)
    (hO : O.val = t.val / 4 % 4 * 1024 + q.val) :
    (iblk m c 2 t : Vec F S1x1024 .f32) (ix2 (0 : Fin 1) q) = (V m c main_v1 : S1x4096.Idx → Elt F .f32) (ix2 (0 : Fin 1) O) := by
  obtain ⟨-, -, -, -, e4, e5, -⟩ := index_maps t
  unfold iblk
  rw [View.read_apply]
  show V m c main_v1 _ = V m c main_v1 _
  refine congrArg _ (funext fun a => Fin.ext ?_)
  match a with
  | ⟨0, _⟩ => show win0_2.index t (0 : Fin 2) * 1 + 1 * 0 = 0; rw [e4]
  | ⟨1, _⟩ => show win0_2.index t (1 : Fin 2) * 1024 + 1 * q.val = O.val; rw [e5, hO]; omega

/-- The activation matrix the region stages is the first argument reshaped to [8192, 4096]. -/
theorem staged_x (c : Dev nD) : (V m c main_v0 : S8192x4096.Idx → Elt F .f32)
    = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The bias row the region stages is the third argument reshaped to [1, 4096]. -/
theorem staged_b (c : Dev nD) : (V m c main_v1 : S1x4096.Idx → Elt F .f32)
    = shapeCast S1x4096 (m ((c : Thread nD τ).loc main_arg2)) Facts₀.shapeCasts_S4096_S1x4096 := by
  show StableHlo.after hostOps0 (fun b => m (c, b)) (Proc.devRef .tc main_v1) = _
  after_results
  rfl

end Cert.KernelIdeal.Blocks

end
-- ==== Proof.Fold.lean ====
/-
  The accumulator at the point that writes an output block back.

  For a fixed output block, the four points with contraction block 0, 1, 2, 3 are consecutive, the first at a
  multiple of four. The first resets the accumulator and adds its product; each later one adds its product onto
  what the point before left. So after the fourth, the accumulator at (p, q) is
      0 + (block 0's sum + block 1's sum + block 2's sum + block 3's sum)
  where block s's sum runs over the 1024 columns of contraction block s of
      X (row, column) * deq (W (output column, column)).
  The four blocks sweep the 4096 columns exactly once, so this is the whole sum over the 4096 columns.
-/
import proofs.«106950_j12086037971010_1_alg».proof.Proof.Gen.KernelIdeal.Frame
import proofs.«106950_j12086037971010_1_alg».proof.Proof.Spec
import proofs.«106950_j12086037971010_1_alg».proof.Proof.Pieces
import proofs.«106950_j12086037971010_1_alg».proof.Proof.Payload
import proofs.«106950_j12086037971010_1_alg».proof.Proof.Blocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.QLinear

variable (m : (ℓ : Loc nD τ sig) → Buf (Elt Ideal) ℓ)

/-- The three arrays the region stages, as plain functions of an index: the activation matrix, the integer
    weight matrix and the bias row, as the host lines before the region leave them. -/
def stagedX (c : Dev nD) : (⟨2, ![8192, 4096]⟩ : Shape).Idx → Ideal .f32 := V m c main_v0
def stagedW (c : Dev nD) : (⟨2, ![4096, 4096]⟩ : Shape).Idx → BitVec 32 := V m c main_arg1
def stagedB (c : Dev nD) : (⟨2, ![1, 4096]⟩ : Shape).Idx → Ideal .f32 := V m c main_v1

/-- The row of the activation matrix behind row `p` of the output block that point `T` works on. -/
def rowOf (T : ℕ) (hT : T < 128) (p : Fin 1024) : Fin 8192 := ⟨T / 16 * 1024 + p.val, by have := p.isLt; omega⟩
/-- The row of the weight matrix (the output column) behind column `q` of that block. -/
def colOf (T : ℕ) (q : Fin 1024) : Fin 4096 := ⟨T / 4 % 4 * 1024 + q.val, by have := q.isLt; omega⟩

theorem rowOf_val (T : ℕ) (hT : T < 128) (p : Fin 1024) : (rowOf T hT p).val = T / 16 * 1024 + p.val := rfl
theorem colOf_val (T : ℕ) (q : Fin 1024) : (colOf T q).val = T / 4 % 4 * 1024 + q.val := rfl

/-- What a point that opens a run of four leaves in the accumulator. -/
def start (c : Dev nD) (n : ℕ) (h : n < cfg0.N) : Vec Ideal S1024x1024 .f32 :=
  k0_pay2 (iblk m c 1 ⟨n, h⟩) (iblk m c 0 ⟨n, h⟩) (k0_pay1 (F := Ideal))
/-- What a later point of the run makes of the accumulator it finds. -/
def step (c : Dev nD) (n : ℕ) (h : n < cfg0.N) (acc : Vec Ideal S1024x1024 .f32) : Vec Ideal S1024x1024 .f32 :=
  k0_pay2 (iblk m c 1 ⟨n, h⟩) (iblk m c 0 ⟨n, h⟩) acc

/-- At a point whose number is a multiple of four the accumulator is reset and updated. -/
theorem at_reset (c : Dev nD) (t : Fin cfg0.N) (h0 : t.val % 4 = 0) :
    (outsAt0 m c t.val t.isLt).2 = k0_pay2 (iblk m c 1 t) (iblk m c 0 t) (k0_pay1 (F := Ideal)) := by
  have h1 : ¬t.val % 4 = 3 := by omega
  rw [outsAt0_A m c t h0 h1]
  dsimp only
  exact Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At every other point it is the update of what the point before left. -/
theorem at_later (c : Dev nD) (t : Fin cfg0.N) (h0 : ¬t.val % 4 = 0) :
    (outsAt0 m c t.val t.isLt).2
      = k0_pay2 (iblk m c 1 t) (iblk m c 0 t) (outsAt0 m c (t.val - 1) (Nat.lt_of_le_of_lt (Nat.sub_le _ _) t.isLt)).2 := by
  by_cases h1 : t.val % 4 = 3
  · rw [outsAt0_C m c t h0 h1]
    dsimp only
    exact Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- So at any point the accumulator is the fold over its run of four, from the run's first point up to it. -/
theorem accumulator_fold (c : Dev nD) (t : Fin cfg0.N) (h' : 4 * (t.val / 4) + t.val % 4 < cfg0.N) :
    (outsAt0 m c t.val t.isLt).2 = Pipeline.accAt (start m c) (step m c) (4 * (t.val / 4)) (t.val % 4) h' :=
  Pipeline.eq_accAt_of_mod (fun n h => (outsAt0 m c n h).2) 4 (start m c) (step m c)
    (fun n h h0 => at_reset m c ⟨n, h⟩ h0) (fun n h h0 => at_later m c ⟨n + 1, h⟩ h0) (by decide) t.val t.isLt h'

/-- One point's addend at (p, q), for the output block of point `T`: the sum over the point's contraction block. -/
def addend (c : Dev nD) (T : ℕ) (hT : T < 128) (n : ℕ) (i : S1024x1024.Idx) : Ideal .f32 :=
  ∑ k : Fin 1024, stagedX m c (ix2 (rowOf T hT (i 0)) (col n k)) * deq (stagedW m c (ix2 (colOf T (i 1)) (col n k)))

/-- The update at a point of `T`'s run adds that point's addend. -/
theorem update_adds (c : Dev nD) (T : ℕ) (hT : T < 128) (n : ℕ) (h : n < cfg0.N)
    (hr : n / 16 = T / 16) (hc : n / 4 % 4 = T / 4 % 4) (acc : Vec Ideal S1024x1024 .f32) (i : S1024x1024.Idx) :
    k0_pay2 (iblk m c 1 ⟨n, h⟩) (iblk m c 0 ⟨n, h⟩) acc i = acc i + addend m c T hT n i := by
  obtain ⟨p, q, rfl⟩ : ∃ (p q : Fin 1024), i = ix2 p q := ⟨i 0, i 1, eq_ix2 i⟩
  refine (Payload.update_apply _ _ acc p q).trans (congrArg (acc (ix2 p q) + ·) ?_)
  refine Finset.sum_congr rfl fun k _ => ?_
  have eX : (iblk m c 0 ⟨n, h⟩ : Vec Ideal S1024x1024 .f32) (ix2 p k) = stagedX m c (ix2 (rowOf T hT p) (col n k)) :=
    Blocks.x_block m c ⟨n, h⟩ p k (rowOf T hT p) (col n k) (by rw [rowOf_val]; show _ = n / 16 * 1024 + _; rw [hr]) rfl
  have eW : (iblk m c 1 ⟨n, h⟩ : Vec Ideal S1024x1024 .i32) (ix2 q k) = stagedW m c (ix2 (colOf T q) (col n k)) :=
    Blocks.w_block m c ⟨n, h⟩ q k (colOf T q) (col n k) (by rw [colOf_val]; show _ = n / 4 % 4 * 1024 + _; rw [hc]) rfl
  rw [eX, eW]

/-- THE ACCUMULATOR AT THE WRITE-BACK: at a point with contraction block 3, the accumulator at (p, q) is the whole
    sum over the 4096 columns. -/
theorem accumulator_at_flush (c : Dev nD) (t : Fin cfg0.N) (h3 : t.val % 4 = 3) (hT : t.val < 128) (p q : Fin 1024) :
    (outsAt0 m c t.val t.isLt).2 (ix2 p q)
      = ∑ l : Fin 4096, stagedX m c (ix2 (rowOf t.val hT p) l) * deq (stagedW m c (ix2 (colOf t.val q) l)) := by
  have h' : 4 * (t.val / 4) + t.val % 4 < cfg0.N := by rw [Nat.div_add_mod]; exact t.isLt
  rw [accumulator_fold m c t h']
  have hfold := Pipeline.accAt_add_apply (start m c) (step m c) (fun _ => (0 : Ideal .f32)) (addend m c t.val hT)
    (4 * (t.val / 4)) 3
    (fun h i => by
      unfold start
      refine (update_adds m c t.val hT _ h (by omega) (by omega) _ i).trans ?_
      rw [Payload.reset_apply])
    (fun n h acc i hlo hhi => by
      unfold step
      exact update_adds m c t.val hT n h (by omega) (by omega) acc i)
    (t.val % 4) (by omega) h' (ix2 p q)
  rw [hfold, h3, zero_add]
  exact sum_four_blocks (fun l => stagedX m c (ix2 (rowOf t.val hT p) l) * deq (stagedW m c (ix2 (colOf t.val q) l)))
    (4 * (t.val / 4)) (by omega)

end Cert.KernelIdeal.Fold

end
-- ==== Proof.Region.lean ====
/-
  The output array after the region.

  An output block is written back only at the point with contraction block 3 of its run. There the body stores
  (accumulator + bias row), and the accumulator is the whole sum over the 4096 columns (the fold). So what is
  written back at point t is block t of ONE function of the staged arrays, the specification `qlinear`; and
  the 8 x 4 output blocks, one per run, tile the [8192, 4096] array: the block holding (r, o) belongs to the
  point with row-block r / 1024, column-block o / 1024 and contraction block 3. Hence the array ends at `qlinear`.
-/
import proofs.«106950_j12086037971010_1_alg».proof.Proof.Gen.KernelIdeal.Frame
import proofs.«106950_j12086037971010_1_alg».proof.Proof.Spec
import proofs.«106950_j12086037971010_1_alg».proof.Proof.Pieces
import proofs.«106950_j12086037971010_1_alg».proof.Proof.Payload
import proofs.«106950_j12086037971010_1_alg».proof.Proof.Blocks
import proofs.«106950_j12086037971010_1_alg».proof.Proof.Fold
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.QLinear Cert.KernelIdeal.Fold

variable (m : (ℓ : Loc nD τ sig) → Buf (Elt Ideal) ℓ)

/-- The output array after the region: the specification, of the arrays as the region finds them. -/
abbrev result (c : Dev nD) : Buf (Elt Ideal) ((c : Thread nD τ).loc main_v2) :=
  qlinear (stagedX m c) (stagedW m c) (stagedB m c)

/-- At the write-back point the output block's buffer holds (this point's accumulator + bias row). -/
theorem out_is_acc_plus_bias (c : Dev nD) (t : Fin cfg0.N) (h0 : ¬t.val % 4 = 0) (h3 : t.val % 4 = 3) :
    (outsAt0 m c t.val t.isLt).1 = k0_pay3 (outsAt0 m c t.val t.isLt).2 (iblk m c 2 t) := by
  rw [outsAt0_C m c t h0 h3]
  dsimp only
  rw [Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2,
    Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2]

/-- Where an element of output block `t` sits in the array. -/
theorem out_emb (t : Fin cfg0.N) (hT : t.val < 128) (p q : Fin 1024) :
    ((cfg0.win 3).blk t).view.emb (ix2 p q) = (ix2 (rowOf t.val hT p) (colOf t.val q) : S8192x4096.Idx) := by
  obtain ⟨-, -, -, -, -, -, e6, e7⟩ := Blocks.index_maps t
  funext a
  apply Fin.ext
  match a with
  | ⟨0, _⟩ => show win0_3.index t (0 : Fin 2) * 1024 + 1 * p.val = t.val / 16 * 1024 + p.val; rw [e6]; omega
  | ⟨1, _⟩ => show win0_3.index t (1 : Fin 2) * 1024 + 1 * q.val = t.val / 4 % 4 * 1024 + q.val; rw [e7]; omega

/-- WHAT A WRITE-BACK WRITES: block `t` of the specification. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  have hT : t.val < 128 := lt_of_lt_of_eq t.isLt N_0
  show (cfg0.win 3).cut (grid0.coords t) ((dats m 0 c).after 3 t) = _
  rw [after0_3, out_is_acc_plus_bias m c t h0 h3]
  funext j
  obtain ⟨p, q, rfl⟩ : ∃ (p q : Fin 1024), j = ix2 p q := ⟨j 0, j 1, eq_ix2 j⟩
  show k0_pay3 (outsAt0 m c t.val t.isLt).2 (iblk m c 2 t) (ix2 p q) = result m c (((cfg0.win 3).blk t).view.emb (ix2 p q))
  rw [out_emb t hT p q]
  refine (Payload.output_apply _ _ p q).trans ?_
  show _ = (∑ l : Fin 4096, stagedX m c (ix2 (rowOf t.val hT p) l) * deq (stagedW m c (ix2 (colOf t.val q) l)))
    + stagedB m c (ix2 (0 : Fin 1) (colOf t.val q))
  have eB : (iblk m c 2 t : Vec Ideal S1x1024 .f32) (ix2 (0 : Fin 1) q) = stagedB m c (ix2 (0 : Fin 1) (colOf t.val q)) :=
    Blocks.b_block m c t q (colOf t.val q) rfl
  rw [accumulator_at_flush m c t h3 hT p q, eB]

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- THE COVER: every index of the array is in the block of a point that writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨(i 0).val / 1024 * 16 + (i 1).val / 1024 * 4 + 3, by rw [hN]; omega⟩
  have htv : t.val = (i 0).val / 1024 * 16 + (i 1).val / 1024 * 4 + 3 := rfl
  obtain ⟨-, -, -, -, -, -, e6, e7⟩ := Blocks.index_maps t
  refine ⟨t, (flush0_3 t).mpr (by rw [htv]; omega), ?_⟩
  rw [mem_blk]
  intro a
  match a with
  | ⟨0, _⟩ =>
    show win0_3.index t (0 : Fin 2) * 1024 ≤ (i 0).val ∧ (i 0).val < win0_3.index t (0 : Fin 2) * 1024 + 1024
    rw [e6, htv]; omega
  | ⟨1, _⟩ =>
    show win0_3.index t (1 : Fin 2) * 1024 ≤ (i 1).val ∧ (i 1).val < win0_3.index t (1 : Fin 2) * 1024 + 1024
    rw [e7, htv]; omega

/-- THE ARRAY AFTER THE REGION is the specification of the staged arrays. -/
theorem final (c : Dev nD) : (dats m 0 c).arrAt 3 cfg0.N = result m c :=
  (dats m 0 c).arrAt_eq_of_cover 3 (result m c) (flushed_eq m c) (cover)

end Cert.KernelIdeal.Region

end
-- ==== Proof.Tail.lean ====
/-
  The host line after the region, and the kernel program's run.

  After the region one host line reshapes the region's [8192, 4096] output array to [4, 2048, 4096]; that is the
  program's result. The three argument arrays end as they started.
-/
import proofs.«106950_j12086037971010_1_alg».proof.Proof.Gen.KernelIdeal.Frame
import proofs.«106950_j12086037971010_1_alg».proof.Proof.Region
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable (m : (ℓ : Loc nD τ sig) → Buf (Elt Ideal) ℓ) (ρ : Dev nD → PrngReg)

/-- The program's result: the region's output array reshaped to [4, 2048, 4096]. -/
abbrev output (c : Dev nD) : Buf (Elt Ideal) ((c : Thread nD τ).loc main_v3) :=
  shapeCast S4x2048x4096 (Region.result m c) Facts₀.shapeCasts_S8192x4096_S4x2048x4096

/-- What the host line after the region leaves in the result buffer. -/
theorem tail_result (c : Dev nD) :
    Pipeline.afterTail₀ cfgs (dats m) 0 (V0 m) [hostOps1] c main_v3 = output m c := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.tc.devRef main_v2) = Region.result m c :=
    (Pipeline.withArrays_arr spec0 launch0.win.arr_inj c _ _ 3).trans (Region.final m c)
  rw [hw]
  rfl

/-- THE KERNEL PROGRAM'S RUN: every weakly fair execution terminates with the result buffer at `output` and the
    three arguments unchanged. -/
theorem run : θ_run defs (onTc (τ := τ) (main (F := Ideal))) ⟨m, fun _ => 0, ρ⟩ fun r => ∀ c : Dev nD,
      r.2.mem ((c.tc : Thread nD τ).loc main_v3) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Tail

end
-- ==== Proof.Bridge.lean ====
/-
  The kernel program's result, index by index, in terms of the ARGUMENTS.

  The region stages the activations reshaped to [8192, 4096]: row b * 2048 + s of that matrix is row (b, s) of
  the argument, because both sit at the same row-major position. It stages the bias as a [1, 4096] row, and the
  weights as they are. After the region the result is reshaped back to [4, 2048, 4096], so entry (b, s, o) is entry
  (b * 2048 + s, o) of the region's output array. Putting these through the specification:
      result (b, s, o) = (sum over the 4096 columns l of x (b, s, l) * deq (w (o, l))) + bias o.
-/
import proofs.«106950_j12086037971010_1_alg».proof.Proof.Gen.KernelIdeal.Frame
import proofs.«106950_j12086037971010_1_alg».proof.Proof.Spec
import proofs.«106950_j12086037971010_1_alg».proof.Proof.Blocks
import proofs.«106950_j12086037971010_1_alg».proof.Proof.Fold
import proofs.«106950_j12086037971010_1_alg».proof.Proof.Region
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Bridge

open Cert.KernelIdeal Cert.KernelIdeal.Gen Cert.QLinear Cert.KernelIdeal.Fold

variable (m : (ℓ : Loc nD τ sig) → Buf (Elt Ideal) ℓ)

/-- The three arguments as plain functions of an index. -/
def argX (c : Dev nD) : (⟨3, ![4, 2048, 4096]⟩ : Shape).Idx → Ideal .f32 := m ((c : Thread nD τ).loc main_arg0)
def argW (c : Dev nD) : (⟨2, ![4096, 4096]⟩ : Shape).Idx → BitVec 32 := m ((c : Thread nD τ).loc main_arg1)
def argB (c : Dev nD) : (⟨1, ![4096]⟩ : Shape).Idx → Ideal .f32 := m ((c : Thread nD τ).loc main_arg2)

/-- Row b * 2048 + s of the staged activation matrix is row (b, s) of the argument. -/
theorem stagedX_apply (c : Dev nD) (b : Fin 4) (s : Fin 2048) (l : Fin 4096) (R : Fin 8192)
    (hR : R.val = b.val * 2048 + s.val) : stagedX m c (ix2 R l) = argX m c (ix3 b s l) := by
  unfold stagedX argX
  rw [Blocks.staged_x]
  refine shapeCast_apply _ _ (ix2 R l) (ix3 b s l) ?_
  rw [Shape.rowMajor_val_three, Shape.rowMajor_val_two]
  show (b.val * 2048 + s.val) * 4096 + l.val = R.val * 4096 + l.val
  rw [hR]

/-- The staged weight matrix is the argument. -/
theorem stagedW_eq (c : Dev nD) : stagedW m c = argW m c := by
  unfold stagedW argW
  exact V_main_arg1 m c

/-- The staged bias row at (0, o) is the argument at o. -/
theorem stagedB_apply (c : Dev nD) (o : Fin 4096) : stagedB m c (ix2 (0 : Fin 1) o) = argB m c (ix1 o) := by
  unfold stagedB argB
  rw [Blocks.staged_b]
  exact shapeCast_a_1a_apply _ _ (0 : Fin 1) o

/-- The region's output array reshaped to [4, 2048, 4096], at (b, s, o). -/
theorem reshaped_result_apply (c : Dev nD) (b : Fin 4) (s : Fin 2048) (o : Fin 4096) :
    shapeCast S4x2048x4096 (Region.result m c) Facts₀.shapeCasts_S8192x4096_S4x2048x4096 (ix3 b s o)
      = (∑ l : Fin 4096, argX m c (ix3 b s l) * deq (argW m c (ix2 o l))) + argB m c (ix1 o) := by
  have hR : b.val * 2048 + s.val < 8192 := by have := b.isLt; have := s.isLt; omega
  refine (shapeCast_apply (Region.result m c) _ (ix3 b s o) (ix2 ⟨b.val * 2048 + s.val, hR⟩ o) ?_).trans ?_
  · show (S8192x4096.rowMajor (ix2 ⟨b.val * 2048 + s.val, hR⟩ o)).val = (S4x2048x4096.rowMajor (ix3 b s o)).val
    rw [Shape.rowMajor_val_two, Shape.rowMajor_val_three]
    rfl
  show (∑ l : Fin 4096, stagedX m c (ix2 ⟨b.val * 2048 + s.val, hR⟩ l) * deq (stagedW m c (ix2 o l)))
      + stagedB m c (ix2 (0 : Fin 1) o) = _
  rw [stagedW_eq, stagedB_apply]
  refine congrArg (· + argB m c (ix1 o)) (Finset.sum_congr rfl fun l _ => ?_)
  rw [stagedX_apply m c b s l _ rfl]

end Cert.KernelIdeal.Bridge

end
-- ==== Proof.Reference.lean ====
/-
  The reference program's result, index by index.

  The reference dequantizes the whole weight matrix, contracts the activations' last axis with the weights'
  column axis in one product, and adds the bias along the last axis. So its result at (b, s, o) is
      (sum over the 4096 columns l of x (b, s, l) * deq (w (o, l))) + bias o.
-/
import proofs.«106950_j12086037971010_1_alg».proof.Proof.Gen.ReferenceIdeal.Read
import proofs.«106950_j12086037971010_1_alg».proof.Proof.Spec
import Idealize.ShloMosaic.Lib.ValueIdx

noncomputable section

open Idealize.ShloMosaic Idealize.ShloMosaic.ValueIdx

namespace Cert.ReferenceIdeal.RefValue

open Cert.ReferenceIdeal Cert.ReferenceIdeal.Read Cert.QLinear

/-- The reference's result at (b, s, o). -/
theorem result_apply (x0 : S4x2048x4096.Idx → Ideal .f32) (x1 : S4096x4096.Idx → BitVec 32) (x2 : S4096.Idx → Ideal .f32)
    (b : Fin 4) (s : Fin 2048) (o : Fin 4096) :
    val_main_v8 (F := Ideal) x0 x1 x2 (ix3 b s o)
      = (∑ l : Fin 4096, x0 (ix3 b s l) * deq (x1 (ix2 o l))) + x2 (ix1 o) := by
  have el : ∀ l : Fin 4096, lidx_main_v5 (ix3 b s o) l = ix3 b s l := fun l => funext fun a => Fin.ext (by
    match a with
    | ⟨0, _⟩ => rfl
    | ⟨1, _⟩ => rfl
    | ⟨2, _⟩ => rfl)
  have er : ∀ l : Fin 4096, ridx_main_v5 (ix3 b s o) l = ix2 o l := fun l => funext fun a => Fin.ext (by
    match a with
    | ⟨0, _⟩ => rfl
    | ⟨1, _⟩ => rfl)
  have eb : idx_main_v6 (idx_main_v7 (ix3 b s o)) = ix1 o := funext fun a => Fin.ext (by
    match a with
    | ⟨0, _⟩ => rfl)
  rw [val_main_v8_apply, val_main_v5_apply, val_main_v7_apply, val_main_v6_apply, eb]
  show (∑ l : Fin 4096, x0 (lidx_main_v5 (ix3 b s o) l) * val_main_v4 (F := Ideal) x1 (ridx_main_v5 (ix3 b s o) l)) + x2 (ix1 o) = _
  refine congrArg (· + x2 (ix1 o)) (Finset.sum_congr rfl fun l _ => ?_)
  rw [el, er, val_main_v4_apply, val_main_v2_apply, val_main_v0_apply, val_main_v1_apply, val_main_cst_apply,
    val_main_v3_apply, val_main_cst_0_apply]
  rfl

end Cert.ReferenceIdeal.RefValue

end
-- ==== Proof.lean ====
/-
  A dense layer over uint8-quantized weights: the kernel against its plain reference.

  Both programs compute, for activations x of shape [4, 2048, 4096], integer weights w of shape [4096, 4096] and a
  bias of shape [4096],
      y (b, s, o) = (sum over the 4096 columns l of x (b, s, l) * deq (w (o, l))) + bias o,
  where deq q = (q read as a signed integer - 128) * 0.02f, the two constants being the same float words in both
  programs. The reference takes the sum in one product. The kernel flattens x to [8192, 4096] and tiles the
  output into 8 x 4 blocks of 1024 x 1024; for each block it walks the four contraction blocks of 1024 columns in
  order, starting an accumulator at zero and adding one block product per grid point, and at the fourth point adds
  the bias and writes the block back. Its change of float format on the way into the product is the identity on
  the extended reals. So the kernel's entry is ((((0 + S0) + S1) + S2) + S3) + bias with Sk the sum over
  contraction block k, and S0 + S1 + S2 + S3 is the whole sum because the four blocks sweep the 4096 columns once:
  addition on the extended reals is commutative and associative, and no other law is used. In particular the
  precondition (finite inputs) is not needed for the equality.

  The frames of the two kernel programs and the reference's run are the generated ones; the idealization rewrote
  nothing, so it is preserved trivially.
-/
import proofs.«106950_j12086037971010_1_alg».proof.Defs
import proofs.«106950_j12086037971010_1_alg».proof.Proof.Gen.Kernel
import proofs.«106950_j12086037971010_1_alg».proof.Proof.Gen.Kernel.Skeleton
import proofs.«106950_j12086037971010_1_alg».proof.Proof.Gen.Kernel.Launch
import proofs.«106950_j12086037971010_1_alg».proof.Proof.Gen.Kernel.Points
import proofs.«106950_j12086037971010_1_alg».proof.Proof.Gen.Kernel.Frame
import proofs.«106950_j12086037971010_1_alg».proof.Proof.Gen.KernelIdeal
import proofs.«106950_j12086037971010_1_alg».proof.Proof.Gen.KernelIdeal.Skeleton
import proofs.«106950_j12086037971010_1_alg».proof.Proof.Gen.KernelIdeal.Launch
import proofs.«106950_j12086037971010_1_alg».proof.Proof.Gen.KernelIdeal.Points
import proofs.«106950_j12086037971010_1_alg».proof.Proof.Gen.KernelIdeal.Frame
import proofs.«106950_j12086037971010_1_alg».proof.Proof.Gen.ReferenceIdeal
import proofs.«106950_j12086037971010_1_alg».proof.Proof.Gen.ReferenceIdeal.Run
import proofs.«106950_j12086037971010_1_alg».proof.Proof.Gen.ReferenceIdeal.Read
import proofs.«106950_j12086037971010_1_alg».proof.Proof.Gen.Pre_finite_inputs
import proofs.«106950_j12086037971010_1_alg».proof.Proof.Spec
import proofs.«106950_j12086037971010_1_alg».proof.Proof.Tail
import proofs.«106950_j12086037971010_1_alg».proof.Proof.Bridge
import proofs.«106950_j12086037971010_1_alg».proof.Proof.Reference
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result and the reference's are the same array: both are the specification
    of the arguments, entry by entry. -/
theorem algebraic : Cert.algebraic_KernelIdeal_ReferenceIdeal := by
  intro m ρ m' ρ' _ hagree
  refine ⟨fun c => Cert.KernelIdeal.Tail.output m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  funext i
  obtain ⟨b, s, o, rfl⟩ : ∃ (b : Fin 4) (s : Fin 2048) (o : Fin 4096), i = ix3 b s o := ⟨i 0, i 1, i 2, eq_ix3 i⟩
  exact (Cert.ReferenceIdeal.RefValue.result_apply _ _ _ b s o).trans
    (Cert.KernelIdeal.Bridge.reshaped_result_apply m c b s o).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
